-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  main_v23

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 25
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S1x128, .f32⟩
  | .hbm, ⟨24, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v12) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩

abbrev nBuf : Space → Nat
  | .hbm => 29
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S1600000x1, .f32⟩
  | .hbm, ⟨8, _⟩ => ⟨S_, .i32⟩
  | .hbm, ⟨9, _⟩ => ⟨S1600000, .i32⟩
  | .hbm, ⟨10, _⟩ => ⟨S1600000, .i1⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S1600000, .i32⟩
  | .hbm, ⟨15, _⟩ => ⟨S1600000x1, .i32⟩
  | .hbm, ⟨16, _⟩ => ⟨S1600000x128, .f32⟩
  | .hbm, ⟨17, _⟩ => ⟨S1600000x128, .f32⟩
  | .hbm, ⟨18, _⟩ => ⟨S1600000x128, .f32⟩
  | .hbm, ⟨19, _⟩ => ⟨S_, .f32⟩
  | .hbm, ⟨20, _⟩ => ⟨S100000x128, .f32⟩
  | .hbm, ⟨21, _⟩ => ⟨S1600000x1, .i32⟩
  | .hbm, ⟨22, _⟩ => ⟨S100000x128, .f32⟩
  | .hbm, ⟨23, _⟩ => ⟨S100000x128, .f32⟩
  | .hbm, ⟨24, _⟩ => ⟨S1x128, .f32⟩
  | .hbm, ⟨25, _⟩ => ⟨S100000x128, .f32⟩
  | .hbm, ⟨26, _⟩ => ⟨S100000x128, .f32⟩
  | .hbm, ⟨27, _⟩ => ⟨S100000x128, .f32⟩
  | .hbm, ⟨28, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDenseRows.lean ====
/-
  A dense layer read one row at a time, on the extended reals.

  For an `[R, K]` array `a`, a `[K, N]` array `w` and an `[N]` array `b`, row `r` of `a · w + b` is
  `n ↦ (∑ k, a r k * w k n) + b n`: it depends on row `r` of `a` alone. The lemmas here read that row off the
  two spellings a program gives the layer — a matrix product accumulated into the zero splat plus a
  `[N] → [1, N] → [R, N]` cast-and-broadcast of the bias, and a host `dot_general` plus the bias broadcast in
  dimension twice — for the plain dimension numbers (contract the left operand's last axis with the right operand's
  first, no batch axis), at any extents. Both spellings give the same function `affine` of the row, so a chain of
  layers computed on a block of rows and the same chain computed on all rows agree row by row.
-/
import Idealize.ShloMosaic.Lib.ValueLayout
import Idealize.ShloMosaic.Lib.ValueIdx
import Idealize.ShloMosaic.PureOps.Ideal.Laws

noncomputable section

namespace Cert.DenseRows

open Idealize.ShloMosaic Idealize.ShloMosaic.ValueIdx

/-! ## Rows, matrices, vectors as plain functions -/

/-- Row `r` of an `[R, K]` array. -/
def row {R K : ℕ} (H : (⟨2, ![R, K]⟩ : Shape).Idx → EReal) (r : Fin R) : Fin K → EReal := fun k => H (ix2 r k)

/-- A `[K, N]` array as a matrix. -/
def mat {K N : ℕ} (W : (⟨2, ![K, N]⟩ : Shape).Idx → EReal) : Fin K → Fin N → EReal := fun k n => W (ix2 k n)

/-- An `[N]` array as a vector. -/
def vec {N : ℕ} (b : (⟨1, ![N]⟩ : Shape).Idx → EReal) : Fin N → EReal := fun n => b (ix1 n)

/-- One dense layer applied to one row: `h · W + b`. -/
def affine {K N : ℕ} (h : Fin K → EReal) (W : Fin K → Fin N → EReal) (b : Fin N → EReal) : Fin N → EReal :=
  fun n => (∑ k : Fin K, h k * W k n) + b n

/-- The entrywise maximum of a row with a fixed threshold `z` (a rectifier when `z` is zero). -/
def floorAt {N : ℕ} (z : EReal) (v : Fin N → EReal) : Fin N → EReal := fun n => max (v n) z

/-! ## The plain contraction, re-indexed by the contracted coordinate -/

/-- The contraction sum of the plain dimension numbers at result index `(r, n)` runs over the contracted
    coordinate `k`: the left operand is read at `(r, k)`, the right at `(k, n)`. -/
theorem plain_contr_sum {M K N : ℕ} (f : (⟨2, ![M, K]⟩ : Shape).Idx → EReal) (g : (⟨2, ![K, N]⟩ : Shape).Idx → EReal)
    (r : Fin M) (n : Fin N) :
    ∑ q : (DotDims.plain M K N).contr.Idx,
        f ((DotDims.plain M K N).lhsIdx (ix2 r n) q) * g ((DotDims.plain M K N).rhsIdx (ix2 r n) q)
      = ∑ k : Fin K, f (ix2 r k) * g (ix2 k n) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r n) ((contrEquiv1 (DotDims.plain M K N) K rfl rfl).symm k) = ix2 r k :=
    funext fun a => Fin.ext (by
      match a with
      | ⟨0, _⟩ =>
        show ((DotDims.plain M K N).lhsIdx (ix2 r n) _ 0).val = r.val
        unfold DotDims.lhsIdx
        rw [dif_neg (show ¬(0 : Fin 2) ∈ (DotDims.plain M K N).lhsBatch from List.not_mem_nil),
          dif_pos (show (0 : Fin 2) ∈ (DotDims.plain M K N).lhsNonContracting from List.mem_singleton.mpr rfl)]
        rfl
      | ⟨1, _⟩ => exact ((DotDims.plain M K N).lhsIdx_val_of_single rfl (ix2 r n) _).trans hk)
  have er : (DotDims.plain M K N).rhsIdx (ix2 r n) ((contrEquiv1 (DotDims.plain M K N) K rfl rfl).symm k) = ix2 k n :=
    funext fun a => Fin.ext (by
      match a with
      | ⟨0, _⟩ => exact ((DotDims.plain M K N).rhsIdx_val_of_single rfl (ix2 r n) _).trans hk
      | ⟨1, _⟩ =>
        show ((DotDims.plain M K N).rhsIdx (ix2 r n) _ 1).val = n.val
        unfold DotDims.rhsIdx
        rw [dif_neg (show ¬(1 : Fin 2) ∈ (DotDims.plain M K N).rhsBatch from List.not_mem_nil),
          dif_pos (show (1 : Fin 2) ∈ (DotDims.plain M K N).rhsNonContracting from List.mem_singleton.mpr rfl)]
        rfl)
  rw [el, er]

/-! ## The bias, broadcast over the rows -/

/-- An `[N]` array cast to `[1, N]` and broadcast to `[R, N]` reads, at `(r, n)`, the array at `n`. -/
theorem castBroadcast_apply {α : Type} {R N : ℕ} (b : (⟨1, ![N]⟩ : Shape).Idx → α)
    (hc : (⟨1, ![N]⟩ : Shape).ShapeCasts ⟨2, ![1, N]⟩) (hb : (⟨2, ![1, N]⟩ : Shape).Broadcasts ⟨2, ![R, N]⟩)
    (r : Fin R) (n : Fin N) :
    broadcastTo ⟨2, ![R, N]⟩ (shapeCast ⟨2, ![1, N]⟩ b hc) hb (ix2 r n) = b (ix1 n) := by
  rw [broadcastTo_1b_ab_apply, shapeCast_a_1a_apply]

/-- An `[N]` array broadcast in dimension to `[1, N]` (its axis the second) and then to `[R, N]` reads, at
    `(r, n)`, the array at `n`. -/
theorem broadcastTwice_apply {α : Type} {R N : ℕ} (b : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) (n : Fin N) :
    broadcastInDim ⟨2, ![R, N]⟩ ![0, 1] h2 (broadcastInDim ⟨2, ![1, N]⟩ ![1] h1 b) (ix2 r n) = b (ix1 n) := by
  have hN : n.val = if N = 1 then 0 else n.val := by
    split
    · have := n.isLt; omega
    · rfl
  rw [broadcastInDim_apply ![0, 1] h2 _ (ix2 r n) (ix2 (0 : Fin 1) n) (fun a => by
      match a with
      | ⟨0, _⟩ => rfl
      | ⟨1, _⟩ => exact hN),
    broadcastInDim_apply ![1] h1 b (ix2 (0 : Fin 1) n) (ix1 n) (fun a => by
      match a with
      | ⟨0, _⟩ => exact hN)]

/-- A rank-zero array broadcast in dimension to any shape reads its one entry everywhere. -/
theorem splat_apply {α : Type} {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-! ## A layer's row, in its two spellings -/

/-- Row `r` of a matrix product accumulated into the zero splat, plus the cast-and-broadcast bias. -/
theorem row_matmul_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (hc : (⟨1, ![N]⟩ : Shape).ShapeCasts ⟨2, ![1, N]⟩) (hb : (⟨2, ![1, N]⟩ : Shape).Broadcasts ⟨2, ![R, N]⟩)
    (r : Fin R) :
    row (addf (matmul d prec a w (constant (F := Ideal) ⟨2, ![R, N]⟩ .f32 0x00000000#32))
          (broadcastTo ⟨2, ![R, N]⟩ (shapeCast ⟨2, ![1, N]⟩ b hc) hb)) r
      = affine (row a r) (mat w) (vec b) := by
  subst hd
  funext n
  show FloatOps.matmul (DotDims.plain R K N) prec a w (constant (F := Ideal) ⟨2, ![R, N]⟩ .f32 0x00000000#32) (ix2 r n)
      + broadcastTo ⟨2, ![R, N]⟩ (shapeCast ⟨2, ![1, N]⟩ b hc) hb (ix2 r n) = _
  rw [Ideal.matmul_constant_zero_apply, plain_contr_sum, castBroadcast_apply]
  rfl

/-- Row `r` of a host `dot_general` plus the bias broadcast in dimension twice. -/
theorem row_dotGeneral_bias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (Host.dotGeneral d prec a w)
          (broadcastInDim ⟨2, ![R, N]⟩ ![0, 1] h2 (broadcastInDim ⟨2, ![1, N]⟩ ![1] h1 b))) r
      = affine (row a r) (mat w) (vec b) := by
  subst hd
  funext n
  show FloatOps.dotGeneral (DotDims.plain R K N) prec .single a w (ix2 r n)
      + broadcastInDim ⟨2, ![R, N]⟩ ![0, 1] h2 (broadcastInDim ⟨2, ![1, N]⟩ ![1] h1 b) (ix2 r n) = _
  rw [Ideal.dotGeneral_apply, plain_contr_sum, broadcastTwice_apply]
  rfl

/-- Row `r` of the entrywise maximum with a splat scalar. -/
theorem row_max_splat {R N : ℕ} (v : FVec Ideal ⟨2, ![R, N]⟩ .f32) (z : Ideal .f32) (r : Fin R) :
    row (maximumf v (broadcast ⟨2, ![R, N]⟩ z)) r = floorAt z (row v r) := rfl

/-- Row `r` of the entrywise maximum with a rank-zero constant broadcast in dimension. -/
theorem row_max_splatInDim {R N : ℕ} (v : FVec Ideal ⟨2, ![R, N]⟩ .f32)
    (dims : Fin (⟨0, ![]⟩ : Shape).rank → Fin (⟨2, ![R, N]⟩ : Shape).rank)
    (h : (⟨0, ![]⟩ : Shape).BroadcastsInDim ⟨2, ![R, N]⟩ dims) (wd : BitVec FTy.f32.bits) (r : Fin R) :
    row (maximumf v (broadcastInDim ⟨2, ![R, N]⟩ dims h (constant (F := Ideal) ⟨0, ![]⟩ .f32 wd))) r
      = floorAt (Ideal.ofBits .f32 wd) (row v r) := by
  funext n
  show max (v (ix2 r n)) (broadcastInDim ⟨2, ![R, N]⟩ dims h (constant (F := Ideal) ⟨0, ![]⟩ .f32 wd) (ix2 r n)) = _
  rw [splat_apply]
  rfl

/-- A change of float format leaves every row as it was: on the extended reals it is the identity. -/
theorem row_truncf {R N : ℕ} {φ ψ : FTy} (v : FVec Ideal ⟨2, ![R, N]⟩ φ) (h : ψ.bits < φ.bits) (r : Fin R) :
    row (truncf ψ v h : FVec Ideal ⟨2, ![R, N]⟩ ψ) r = row v r := rfl

/-- A shape cast to the same shape leaves a matrix as it was. -/
theorem mat_shapeCast_self {K N : ℕ} (w : (⟨2, ![K, N]⟩ : Shape).Idx → EReal)
    (h : (⟨2, ![K, N]⟩ : Shape).ShapeCasts ⟨2, ![K, N]⟩) :
    mat (shapeCast ⟨2, ![K, N]⟩ w h) = mat w := by
  rw [shapeCast_self]

/-- A shape cast to the same shape leaves every row as it was. -/
theorem row_shapeCast_self {R N : ℕ} (v : (⟨2, ![R, N]⟩ : Shape).Idx → EReal)
    (h : (⟨2, ![R, N]⟩ : Shape).ShapeCasts ⟨2, ![R, N]⟩) (r : Fin R) :
    row (shapeCast ⟨2, ![R, N]⟩ v h) r = row v r := by
  rw [shapeCast_self]

end Cert.DenseRows

end
-- ==== Proof.LibBlockRows.lean ====
/-
  Rows of a kernel block, on the extended reals.

  A kernel body that works on a block of R rows often (a) scales a sum of two [R, K] blocks by a per-row factor held
  as a column [R, 1] and spread over the lanes, and (b) multiplies an [R, K] block by a [K, N] matrix, accumulating
  into zeros, and adds a bias held as a one-row matrix [1, N] spread over the rows (the bias was reshaped to one row
  on the host, and the body loads that row). In both, row r of the result depends on row r of the row operands alone:
      (a)  k ↦ (a r k + f r k) · s r            (b)  n ↦ (∑ k, a r k · w k n) + b 0 n.
  The lemmas below read those rows, at any extents, for the plain dimension numbers (contract the left operand's
  last axis with the right operand's first, no batch axis). They use `row`, `mat`, `affine` and
  `plain_contr_sum` of LibDenseRows.lean.
-/
import Idealize.ShloMosaic.Lib.ValueLayout
import Idealize.ShloMosaic.Lib.ValueIdx
import Idealize.ShloMosaic.Lib.Pipeline.Value
import Idealize.ShloMosaic.PureOps.Ideal.Laws
import proofs.«115758_j88244398064425_1_alg».proof.Proof.LibDenseRows

noncomputable section

namespace Cert.LibBlockRows

open Idealize.ShloMosaic Idealize.ShloMosaic.ValueIdx Cert.DenseRows

/-- A column [R, 1] spread over K lanes reads, at (r, k), the column at r. -/
theorem column_spread {α : Type} {R K : ℕ} (s : (⟨2, ![R, 1]⟩ : Shape).Idx → α)
    (hb : (⟨2, ![R, 1]⟩ : Shape).Broadcasts ⟨2, ![R, K]⟩) (r : Fin R) (k : Fin K) :
    broadcastTo ⟨2, ![R, K]⟩ s hb (ix2 r k) = s (ix2 r (0 : Fin 1)) := by
  refine broadcastTo_apply s hb (ix2 r k) (ix2 r (0 : Fin 1)) fun ax => ?_
  match ax with
  | ⟨0, _⟩ =>
    show r.val = if R = 1 then 0 else r.val
    split
    · have := r.isLt; omega
    · rfl
  | ⟨1, _⟩ => rfl

/-- A one-row matrix [1, N] spread over R rows reads, at (r, n), the row at n. -/
theorem row_spread {α : Type} {R N : ℕ} (b : (⟨2, ![1, N]⟩ : Shape).Idx → α)
    (hb : (⟨2, ![1, N]⟩ : Shape).Broadcasts ⟨2, ![R, N]⟩) (r : Fin R) (n : Fin N) :
    broadcastTo ⟨2, ![R, N]⟩ b hb (ix2 r n) = b (ix2 (0 : Fin 1) n) := by
  refine broadcastTo_apply b hb (ix2 r n) (ix2 (0 : Fin 1) n) fun ax => ?_
  match ax with
  | ⟨0, _⟩ => rfl
  | ⟨1, _⟩ =>
    show n.val = if N = 1 then 0 else n.val
    split
    · have := n.isLt; omega
    · rfl

/-- Row `r` of `(a + f) · s`, the column `s` spread over the lanes: every entry of the summed row times the one
    factor `s r`. -/
theorem row_scaled_sum {R K : ℕ} (a f : FVec Ideal ⟨2, ![R, K]⟩ .f32) (s : FVec Ideal ⟨2, ![R, 1]⟩ .f32)
    (hb : (⟨2, ![R, 1]⟩ : Shape).Broadcasts ⟨2, ![R, K]⟩) (r : Fin R) :
    row (mulf (addf a f) (broadcastTo ⟨2, ![R, K]⟩ s hb)) r
      = fun k => (row a r k + row f r k) * s (ix2 r (0 : Fin 1)) := by
  funext k
  show (a (ix2 r k) + f (ix2 r k)) * broadcastTo ⟨2, ![R, K]⟩ s hb (ix2 r k) = _
  rw [column_spread]
  rfl

/-- Row `r` of a matrix product accumulated into the zero splat, plus a one-row bias spread over the rows, is the
    dense layer `h ↦ h · w + b` of row `r` of the left operand. -/
theorem row_matmul_rowbias {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (b : FVec Ideal ⟨2, ![1, N]⟩ .f32)
    (hb : (⟨2, ![1, N]⟩ : Shape).Broadcasts ⟨2, ![R, N]⟩) (r : Fin R) :
    row (addf (matmul d prec a w (constant (F := Ideal) ⟨2, ![R, N]⟩ .f32 0x00000000#32))
          (broadcastTo ⟨2, ![R, N]⟩ b hb)) r
      = affine (row a r) (mat w) (row b (0 : Fin 1)) := by
  subst hd
  funext n
  show FloatOps.matmul (DotDims.plain R K N) prec a w (constant (F := Ideal) ⟨2, ![R, N]⟩ .f32 0x00000000#32) (ix2 r n)
      + broadcastTo ⟨2, ![R, N]⟩ b hb (ix2 r n) = _
  rw [Ideal.matmul_constant_zero_apply, plain_contr_sum, row_spread]
  rfl

end Cert.LibBlockRows

end
-- ==== Proof.LibLayerSum.lean ====
/-
  The sum of two dense layers, read one row at a time on the extended reals.

  For `[R, K]` arrays `a` and `x`, `[K, N]` matrices `u` and `w` and a bias `b` of `N` entries, the array
  `(a · u + b) + x · w` has as its row `r`
      n ↦ ((∑ k, a r k * u k n) + b n) + ∑ k, x r k * w k n,
  a function of row `r` of `a` and row `r` of `x` alone (`layerSum`). The lemmas here read that row off the two
  spellings a program gives the array — two matrix products accumulated into zero splats with the bias held as a
  one-row matrix `[1, N]` spread over the rows, and two host `dot_general`s with the bias `[N]` broadcast in
  dimension twice — for the plain dimension numbers (contract the left operand's last axis with the right
  operand's first, no batch axis), at any extents and any float formats of the operands. Since both spellings give
  the same function of the row, the array computed block of rows by block of rows and the array computed whole
  agree row by row; `wholeOf` is that array as one function of its index. No finiteness is used: only the
  grouping `(· + b) + ·`, which the two spellings share.
  Built on `row`, `mat`, `vec`, `affine`, `plain_contr_sum` of LibDenseRows.lean and `row_matmul_rowbias` of
  LibBlockRows.lean.
-/
import Idealize.ShloMosaic.Lib.ValueLayout
import Idealize.ShloMosaic.Lib.ValueIdx
import Idealize.ShloMosaic.PureOps.Ideal.Laws
import proofs.«115758_j88244398064425_1_alg».proof.Proof.LibDenseRows
import proofs.«115758_j88244398064425_1_alg».proof.Proof.LibBlockRows

noncomputable section

namespace Cert.LibLayerSum

open Idealize.ShloMosaic Idealize.ShloMosaic.ValueIdx Cert.DenseRows Cert.LibBlockRows

/-- One row times a matrix: `h · W`. -/
def linear {K N : ℕ} (h : Fin K → EReal) (W : Fin K → Fin N → EReal) : Fin N → EReal :=
  fun n => ∑ k : Fin K, h k * W k n

/-- A biased dense layer of the row `h` plus an unbiased one of the row `g`: `(h · U + b) + g · W`. -/
def layerSum {K N : ℕ} (h g : Fin K → EReal) (U W : Fin K → Fin N → EReal) (b : Fin N → EReal) : Fin N → EReal :=
  fun n => affine h U b n + linear g W n

/-- The array whose row `r` is `layerSum` of row `r` of `A` and row `r` of `X`. -/
def wholeOf {R K N : ℕ} (A X : (⟨2, ![R, K]⟩ : Shape).Idx → EReal) (U W : (⟨2, ![K, N]⟩ : Shape).Idx → EReal)
    (b : Fin N → EReal) : (⟨2, ![R, N]⟩ : Shape).Idx → EReal :=
  fun i => layerSum (row A (i 0)) (row X (i 0)) (mat U) (mat W) b (i 1)

theorem wholeOf_ix2 {R K N : ℕ} (A X : (⟨2, ![R, K]⟩ : Shape).Idx → EReal) (U W : (⟨2, ![K, N]⟩ : Shape).Idx → EReal)
    (b : Fin N → EReal) (r : Fin R) (n : Fin N) :
    wholeOf A X U W b (ix2 r n) = layerSum (row A r) (row X r) (mat U) (mat W) b n := rfl

/-- Row `r` of a matrix product accumulated into the zero splat. -/
theorem row_matmul {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (matmul d prec a w (constant (F := Ideal) ⟨2, ![R, N]⟩ .f32 0x00000000#32)) r = linear (row a r) (mat w) := by
  subst hd
  funext n
  show FloatOps.matmul (DotDims.plain R K N) prec a w (constant (F := Ideal) ⟨2, ![R, N]⟩ .f32 0x00000000#32) (ix2 r n) = _
  rw [Ideal.matmul_constant_zero_apply, plain_contr_sum]
  rfl

/-- Row `r` of a host `dot_general`. -/
theorem row_dotGeneral {R K N : ℕ} {φ₁ φ₂ : FTy} (d : DotDims ⟨2, ![R, K]⟩ ⟨2, ![K, N]⟩ ⟨2, ![R, N]⟩)
    (hd : d = DotDims.plain R K N) (prec : Option ContractPrecision)
    (a : FVec Ideal ⟨2, ![R, K]⟩ φ₁) (w : FVec Ideal ⟨2, ![K, N]⟩ φ₂) (r : Fin R) :
    row (Host.dotGeneral d prec a w : FVec Ideal ⟨2, ![R, N]⟩ .f32) r = linear (row a r) (mat w) := by
  subst hd
  funext n
  show FloatOps.dotGeneral (DotDims.plain R K N) prec .single a w (ix2 r n) = _
  rw [Ideal.dotGeneral_apply, plain_contr_sum]
  rfl

/-- THE BLOCK'S SPELLING: row `r` of `(a ·ₘ u + spread b) + x ·ₘ w`, the products accumulated into zero splats, the
    bias a one-row matrix spread over the rows. -/
theorem row_block {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨2, ![1, N]⟩ .f32)
    (hb : (⟨2, ![1, N]⟩ : Shape).Broadcasts ⟨2, ![R, N]⟩) (r : Fin R) :
    row (addf (addf (matmul d prec a u (constant (F := Ideal) ⟨2, ![R, N]⟩ .f32 0x00000000#32))
            (broadcastTo ⟨2, ![R, N]⟩ b hb))
          (matmul d prec' x w (constant (F := Ideal) ⟨2, ![R, N]⟩ .f32 0x00000000#32))) r
      = layerSum (row a r) (row x r) (mat u) (mat w) (row b (0 : Fin 1)) := by
  funext n
  show row (addf (matmul d prec a u (constant (F := Ideal) ⟨2, ![R, N]⟩ .f32 0x00000000#32))
          (broadcastTo ⟨2, ![R, N]⟩ b hb)) r n
        + row (matmul d prec' x w (constant (F := Ideal) ⟨2, ![R, N]⟩ .f32 0x00000000#32)) r n = _
  rw [row_matmul_rowbias d hd, row_matmul d hd]
  rfl

/-- THE HOST'S SPELLING: row `r` of `(dot_general a u + b broadcast twice) + dot_general x w`. -/
theorem row_host {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) (r : Fin R) :
    row (addf (addf (Host.dotGeneral d prec a u)
            (broadcastInDim ⟨2, ![R, N]⟩ ![0, 1] h2 (broadcastInDim ⟨2, ![1, N]⟩ ![1] h1 b)))
          (Host.dotGeneral d prec' x w : FVec Ideal ⟨2, ![R, N]⟩ .f32)) r
      = layerSum (row a r) (row x r) (mat u) (mat w) (vec b) := by
  funext n
  show row (addf (Host.dotGeneral d prec a u)
          (broadcastInDim ⟨2, ![R, N]⟩ ![0, 1] h2 (broadcastInDim ⟨2, ![1, N]⟩ ![1] h1 b))) r n
        + row (Host.dotGeneral d prec' x w : FVec Ideal ⟨2, ![R, N]⟩ .f32) r n = _
  rw [row_dotGeneral_bias d hd, row_dotGeneral d hd]
  rfl

/-- So the host's array is `wholeOf` of its operands, index by index. -/
theorem host_whole {R K N : ℕ} {φ₁ φ₂ φ₃ φ₄ : FTy} (d : DotDims ⟨2, ![R, K]⟩ ⟨2, ![K, N]⟩ ⟨2, ![R, N]⟩)
    (hd : d = DotDims.plain R K N) (prec prec' : Option ContractPrecision)
    (a : FVec Ideal ⟨2, ![R, K]⟩ φ₁) (u : FVec Ideal ⟨2, ![K, N]⟩ φ₂)
    (x : FVec Ideal ⟨2, ![R, K]⟩ φ₃) (w : FVec Ideal ⟨2, ![K, N]⟩ φ₄) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![R, N]⟩ ![0, 1]) :
    addf (addf (Host.dotGeneral d prec a u)
            (broadcastInDim ⟨2, ![R, N]⟩ ![0, 1] h2 (broadcastInDim ⟨2, ![1, N]⟩ ![1] h1 b)))
          (Host.dotGeneral d prec' x w : FVec Ideal ⟨2, ![R, N]⟩ .f32)
      = wholeOf a x u w (vec b) := by
  funext i
  obtain ⟨r, n, rfl⟩ : ∃ (r : Fin R) (n : Fin N), i = ix2 r n := ⟨i 0, i 1, eq_ix2 i⟩
  exact congrFun (row_host d hd prec prec' a u x w b h1 h2 r) n

/-- An `[N]` array cast to one row `[1, N]` has the array as that row. -/
theorem row_cast_vec {N : ℕ} (b : (⟨1, ![N]⟩ : Shape).Idx → EReal) (hc : (⟨1, ![N]⟩ : Shape).ShapeCasts ⟨2, ![1, N]⟩) :
    row (shapeCast ⟨2, ![1, N]⟩ b hc) (0 : Fin 1) = vec b := by
  funext n
  show shapeCast ⟨2, ![1, N]⟩ b hc (ix2 (0 : Fin 1) n) = b (ix1 n)
  rw [shapeCast_a_1a_apply]

end Cert.LibLayerSum

end
-- ==== Proof.BlockRows.lean ====
/-
  One block of the kernel, row by row, on the extended reals.

  At a grid point the body loads a block `a` of 5000 rows of the aggregated features, the block `x` of the same 5000
  rows of the node features, the two 128 × 128 weight matrices `u`, `w` and the bias as one row `b` of 128 entries, and
  stores `(a · u + b) + x · w`. The changes of float format before the products are the identity on the extended
  reals, and each product is accumulated into zeros, so row `p` of what is stored is
      n ↦ ((∑ k, a p k * u k n) + b 0 n) + ∑ k, x p k * w k n
  — `layerSum` of row `p` of `a` and row `p` of `x`.
-/
import proofs.«115758_j88244398064425_1_alg».proof.Proof.Gen.KernelIdeal.Skeleton
import proofs.«115758_j88244398064425_1_alg».proof.Proof.LibLayerSum

noncomputable section

namespace Cert.KernelIdeal.BlockRows

open Cert.KernelIdeal Cert.KernelIdeal.Gen Idealize.ShloMosaic Idealize.ShloMosaic.ValueIdx
open Cert.DenseRows Cert.LibLayerSum

/-- The body's two products contract the left operand's last axis with the right operand's first. -/
theorem dot_plain : dot_S5000x128_S128x128_S5000x128_1_0_0_1_n_n = DotDims.plain 5000 128 128 := rfl

/-- Row `p` of the stored block is `layerSum` of row `p` of the two row blocks. -/
theorem stored_row (x0 x1 : FVec Ideal S5000x128 .f32) (x2 x4 : FVec Ideal S128x128 .f32) (x3 : FVec Ideal S1x128 .f32)
    (p : Fin 5000) :
    row (k0_pay1 (F := Ideal) x0 x1 x2 x4 x3) p
      = layerSum (row x0 p) (row x1 p) (mat x2) (mat x4) (row x3 (0 : Fin 1)) := by
  unfold k0_pay1
  simp only [shapeCast_self]
  exact row_block _ dot_plain none none _ _ _ _ _ _ p

end Cert.KernelIdeal.BlockRows

end
-- ==== Proof.Entry.lean ====
/-
  What the region finds in the two arrays the host wrote for it.

  Before the region the host computes the aggregated features — for each edge the source node's feature row
  scaled by the edge's weight, added into the row of the edge's target node, starting from zeros — and lays the
  bias out as one row. `aggregated` names the first as one function of the four arguments it reads; it is never
  opened: the reference computes the same array by the same operations, and the two are compared as they stand.
-/
import proofs.«115758_j88244398064425_1_alg».proof.Proof.Gen.KernelIdeal.Frame
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]

/-- The aggregated features: a negative source index wrapped once by the number of nodes, the source rows gathered,
    each scaled by its edge's weight, and the scaled rows added into zeros at the target rows. -/
def aggregated (x0 : (⟨S100000x128, .f32⟩ : BufTy).Contents (Elt F)) (x1 x2 : (⟨S1600000, .i32⟩ : BufTy).Contents (Elt F))
    (x3 : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 x1)
    (mulf (broadcastInDim S1600000x128 ![0, 1] bcast_S1600000x1_S1600000x128_0_1 (broadcastInDim S1600000x1 ![0] bcast_S1600000_S1600000x1_0 x3))
      (Host.gather gather_S100000x128_S1600000x1_S1600000x128_1_0_n_n_0_1_1128 x0
        (broadcastInDim S1600000x1 ![0] bcast_S1600000_S1600000x1_0
          (select (cmpi .slt x2 (broadcastInDim S1600000 ![] bcast_S_S1600000 (constantI S_ 32 0#32)))
            (addi x2 (broadcastInDim S1600000 ![] bcast_S_S1600000 (constantI S_ 32 100000#32))) x2))))

variable (m : (ℓ : Loc nD τ sig) → Buf (Elt F) ℓ)

/-- Window 0's array, when the region is entered, holds the aggregated features of the arguments. -/
theorem found_aggregated (c : Dev nD) :
    (V m c main_v12 : (⟨S100000x128, .f32⟩ : BufTy).Contents (Elt F))
      = aggregated (m ((c : Thread nD τ).loc main_arg0)) (m ((c : Thread nD τ).loc main_arg1))
          (m ((c : Thread nD τ).loc main_arg2)) (m ((c : Thread nD τ).loc main_arg3)) := by
  dsimp only [Gen.V, Gen.hostOps0]
  after_results
  rfl

/-- Window 3's array holds the bias laid out as one row. -/
theorem found_bias (c : Dev nD) :
    (V m c main_v13 : (⟨S1x128, .f32⟩ : BufTy).Contents (Elt F))
      = shapeCast S1x128 (m ((c : Thread nD τ).loc main_arg5)) shapeCasts_S128_S1x128 := by
  dsimp only [Gen.V, Gen.hostOps0]
  after_results
  rfl

end Cert.KernelIdeal.Entry

end
-- ==== Proof.Whole.lean ====
/-
  From the blocks to the whole result array.

  The grid has 20 points; point `t` reads rows `5000 t … 5000 t + 4999` of the aggregated features and of the node
  features, the two weight matrices and the bias row whole, and writes rows `5000 t … 5000 t + 4999` of the result.
  Row `p` of what it writes is `layerSum` of row `p` of its two row blocks, that is, of rows `5000 t + p` of the two
  arrays: so every point writes its rows of ONE array, `wholeOf` of the arrays the region finds, and the twenty
  blocks of 5000 rows cover the 100000 rows. The arrays the region finds are the arguments, the aggregated features
  of the arguments and the bias as one row, so the result is `wholeOf` of those.
-/
import proofs.«115758_j88244398064425_1_alg».proof.Proof.Gen.KernelIdeal.Value
import proofs.«115758_j88244398064425_1_alg».proof.Proof.BlockRows
import proofs.«115758_j88244398064425_1_alg».proof.Proof.Entry
import Idealize.ShloMosaic.Lib.Pipeline.Value

noncomputable section

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.DenseRows Cert.LibLayerSum

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point `t`: the three row windows at block row `t`, the weights and the bias
    at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-! ## Each window's block as rows of the array in its place

Stated for ANY array in the window's place: what a block holds depends on where the block sits, not on what the
array is. -/

/-- Row `p` of window 0's block at point `t` is row `5000 t + p` of its array. -/
theorem read_rows0 (A : S100000x128.Idx → EReal) (t : Fin cfg0.N) (p : Fin 5000) (r : Fin 100000) (hr : r.val = t.val * 5000 + p.val) :
    row (((cfg0.win 0).blk t).view.read (Elt Ideal) A : S5000x128.Idx → EReal) p = row A r := by
  obtain ⟨e0, e1, -⟩ := block_index t
  funext k
  show A (((cfg0.win 0).blk t).view.emb (ix2 p k)) = A (ix2 r k)
  refine congrArg A (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- Row `p` of window 1's block at point `t` is row `5000 t + p` of its array. -/
theorem read_rows1 (A : S100000x128.Idx → EReal) (t : Fin cfg0.N) (p : Fin 5000) (r : Fin 100000) (hr : r.val = t.val * 5000 + p.val) :
    row (((cfg0.win 1).blk t).view.read (Elt Ideal) A : S5000x128.Idx → EReal) p = row A r := by
  obtain ⟨-, -, e0, e1, -⟩ := block_index t
  funext k
  show A (((cfg0.win 1).blk t).view.emb (ix2 p k)) = A (ix2 r k)
  refine congrArg A (funext fun a => Fin.ext ?_)
  match a with
  | ⟨0, _⟩ => show win0_1.index t (0 : Fin 2) * 5000 + 1 * p.val = r.val; omega
  | ⟨1, _⟩ => show win0_1.index t (1 : Fin 2) * 128 + 1 * k.val = k.val; omega

/-- Window 2's block is its whole matrix, at every point. -/
theorem read_mat2 (A : S128x128.Idx → EReal) (t : Fin cfg0.N) :
    mat (((cfg0.win 2).blk t).view.read (Elt Ideal) A : S128x128.Idx → EReal) = mat A := by
  obtain ⟨-, -, -, -, e0, e1, -⟩ := block_index t
  funext k n
  show A (((cfg0.win 2).blk t).view.emb (ix2 k n)) = A (ix2 k n)
  refine congrArg A (funext fun a => Fin.ext ?_)
  match a with
  | ⟨0, _⟩ => show win0_2.index t (0 : Fin 2) * 128 + 1 * k.val = k.val; omega
  | ⟨1, _⟩ => show win0_2.index t (1 : Fin 2) * 128 + 1 * n.val = n.val; omega

/-- Window 4's block is its whole matrix, at every point. -/
theorem read_mat4 (A : S128x128.Idx → EReal) (t : Fin cfg0.N) :
    mat (((cfg0.win 4).blk t).view.read (Elt Ideal) A : S128x128.Idx → EReal) = mat A := by
  obtain ⟨-, -, -, -, -, -, -, -, e0, e1, -⟩ := block_index t
  funext k n
  show A (((cfg0.win 4).blk t).view.emb (ix2 k n)) = A (ix2 k n)
  refine congrArg A (funext fun a => Fin.ext ?_)
  match a with
  | ⟨0, _⟩ => show win0_4.index t (0 : Fin 2) * 128 + 1 * k.val = k.val; omega
  | ⟨1, _⟩ => show win0_4.index t (1 : Fin 2) * 128 + 1 * n.val = n.val; omega

/-- Window 3's block is its whole one-row array, at every point. -/
theorem read_row3 (A : S1x128.Idx → EReal) (t : Fin cfg0.N) :
    row (((cfg0.win 3).blk t).view.read (Elt Ideal) A : S1x128.Idx → EReal) (0 : Fin 1) = row A (0 : Fin 1) := by
  obtain ⟨-, -, -, -, -, -, e0, e1, -⟩ := block_index t
  funext n
  show A (((cfg0.win 3).blk t).view.emb (ix2 (0 : Fin 1) n)) = A (ix2 (0 : Fin 1) n)
  refine congrArg A (funext fun a => Fin.ext ?_)
  match a with
  | ⟨0, _⟩ => show win0_3.index t (0 : Fin 2) * 1 + 1 * (0 : Fin 1).val = (0 : Fin 1).val; omega
  | ⟨1, _⟩ => show win0_3.index t (1 : Fin 2) * 128 + 1 * n.val = n.val; omega

/-! ## Every point writes its rows of one array -/

/-- THE POINT'S EQUATION, for any arrays in the five input windows' places: what the body stores from the blocks at
    point `t` is block `t` of `wholeOf` of the arrays. -/
theorem point_writes (A0 A1 : S100000x128.Idx → EReal) (A2 A4 : S128x128.Idx → EReal) (A3 : S1x128.Idx → EReal)
    (t : Fin cfg0.N) :
    (cfg0.win 5).cut (grid0.coords t)
        (k0_pay1 (F := Ideal) (((cfg0.win 0).blk t).view.read (Elt Ideal) A0) (((cfg0.win 1).blk t).view.read (Elt Ideal) A1)
          (((cfg0.win 2).blk t).view.read (Elt Ideal) A2) (((cfg0.win 4).blk t).view.read (Elt Ideal) A4)
          (((cfg0.win 3).blk t).view.read (Elt Ideal) A3))
      = ((cfg0.win 5).blk t).view.read (Elt Ideal) (wholeOf A0 A1 A2 A4 (row A3 (0 : Fin 1))) := by
  obtain ⟨-, -, -, -, -, -, -, -, -, -, e0, e1⟩ := block_index t
  funext j
  obtain ⟨p, q, rfl⟩ : ∃ (p : Fin 5000) (q : Fin 128), j = ix2 p q := ⟨j 0, j 1, eq_ix2 j⟩
  have hN : cfg0.N = 20 := N_0
  have hlt : t.val * 5000 + p.val < 100000 := by have := t.isLt; have := p.isLt; omega
  have hi : ((cfg0.win 5).blk t).view.emb (ix2 p q) = (ix2 (⟨t.val * 5000 + p.val, hlt⟩ : Fin 100000) q : S100000x128.Idx) :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  show k0_pay1 (F := Ideal) (((cfg0.win 0).blk t).view.read (Elt Ideal) A0) (((cfg0.win 1).blk t).view.read (Elt Ideal) A1)
          (((cfg0.win 2).blk t).view.read (Elt Ideal) A2) (((cfg0.win 4).blk t).view.read (Elt Ideal) A4)
          (((cfg0.win 3).blk t).view.read (Elt Ideal) A3) (ix2 p q)
      = wholeOf A0 A1 A2 A4 (row A3 (0 : Fin 1)) (((cfg0.win 5).blk t).view.emb (ix2 p q))
  rw [hi]
  refine (congrFun (BlockRows.stored_row _ _ _ _ _ p) q).trans ?_
  rw [read_rows0 A0 t p ⟨t.val * 5000 + p.val, hlt⟩ rfl, read_rows1 A1 t p ⟨t.val * 5000 + p.val, hlt⟩ rfl, read_mat2 A2 t,
    read_mat4 A4 t, read_row3 A3 t]
  rfl

/-- The array every point writes its rows of: `wholeOf` of the arrays the region finds in the input windows' places. -/
def target (c : Dev nD) : S100000x128.Idx → EReal :=
  wholeOf (V m c (Pipeline.arrRef spec0 0)) (V m c (Pipeline.arrRef spec0 1))
    (V m c (Pipeline.arrRef spec0 2)) (V m c (Pipeline.arrRef spec0 4))
    (row (V m c (Pipeline.arrRef spec0 3) : S1x128.Idx → EReal) (0 : Fin 1))

/-- What point `t` writes back is block `t` of `target`. -/
theorem flushed_eq (c : Dev nD) (t : Fin cfg0.N) :
    (dats m 0 c).flushed 5 t = ((cfg0.win 5).blk t).view.read (Elt Ideal) (target m c) := by
  rw [flushed5]
  unfold out0_5
  rw [View.canon_unit_zero hz]
  simp only [View.ld_unit_zero (S := S5000x128) hz, View.ld_unit_zero (S := S128x128) hz, View.ld_unit_zero (S := S1x128) hz]
  unfold iblk target
  exact point_writes _ _ _ _ _ t

/-! ## The blocks cover the array -/

/-- An index of the result array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v14).slice (win0_5.rect t)).set ↔ _
  rw [View.set_slice_whole, Rect.mem_set_unit]
  exact Iff.rfl

/-- Row `r` lies in the block of point `r / 5000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨-, -, -, -, -, -, -, -, -, -, e0, e1⟩ := block_index ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val
      ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val
      ∧ (i 1).val < win0_5.index ⟨(i 0).val / 5000, ht⟩ (1 : Fin 2) * 128 + 128
    omega

/-- So the result array ends holding `target`. -/
theorem final (c : Dev nD) : (dats m 0 c).arrAt 5 cfg0.N = target m c :=
  (dats m 0 c).arrAt_eq_of_cover 5 (target m c) (fun t _ => flushed_eq m c t) covered

/-! ## In terms of the arguments -/

/-- The result as one function of the argument arrays. -/
def result (c : Dev nD) : S100000x128.Idx → EReal :=
  wholeOf
    (Entry.aggregated (F := Ideal) (m ((c : Thread nD τ).loc main_arg0)) (m ((c : Thread nD τ).loc main_arg1))
      (m ((c : Thread nD τ).loc main_arg2)) (m ((c : Thread nD τ).loc main_arg3)) : S100000x128.Idx → EReal)
    (m ((c : Thread nD τ).loc main_arg0) : S100000x128.Idx → EReal)
    (m ((c : Thread nD τ).loc main_arg4) : S128x128.Idx → EReal)
    (m ((c : Thread nD τ).loc main_arg6) : S128x128.Idx → EReal)
    (vec (m ((c : Thread nD τ).loc main_arg5) : S128.Idx → EReal))

/-- The arrays the region finds are the aggregated features of the arguments, three of the arguments, and the bias as
    one row. -/
theorem target_eq (c : Dev nD) : target m c = result m c := by
  unfold target result
  rw [show V m c (Pipeline.arrRef spec0 0) = V m c main_v12 from rfl, show V m c (Pipeline.arrRef spec0 1) = V m c main_arg0 from rfl,
    show V m c (Pipeline.arrRef spec0 2) = V m c main_arg4 from rfl, show V m c (Pipeline.arrRef spec0 4) = V m c main_arg6 from rfl,
    show V m c (Pipeline.arrRef spec0 3) = V m c main_v13 from rfl,
    Entry.found_aggregated, Entry.found_bias, V_main_arg0, V_main_arg4, V_main_arg6, row_cast_vec]

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v14) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (target_eq m c)), (h c).2⟩)
    (run_blocks m ρ)

end Cert.KernelIdeal.Whole

end
-- ==== Proof.RefRows.lean ====
/-
  The reference's result as the same function of the arguments.

  The reference computes the aggregated features by the operations the kernel's host part uses, then
  `(aggregated · W_l + b) + x · W_r` with two `dot_general`s and the bias broadcast in dimension twice. Read row by
  row that is `wholeOf` of the aggregated features, the node features, the two weight matrices and the bias: the
  host's spelling of `layerSum`. The aggregated features stay the unopened stage `val_main_v12` of the generated
  read-back of the reference's run.
-/
import proofs.«115758_j88244398064425_1_alg».proof.Proof.Gen.ReferenceIdeal.Run
import proofs.«115758_j88244398064425_1_alg».proof.Proof.Gen.ReferenceIdeal.Read
import proofs.«115758_j88244398064425_1_alg».proof.Proof.LibLayerSum

noncomputable section

namespace Cert.ReferenceIdeal.Rows

open Cert.ReferenceIdeal Cert.ReferenceIdeal.Gen Idealize.ShloMosaic Idealize.ShloMosaic.ValueIdx
open Cert.DenseRows Cert.LibLayerSum

/-- The reference's two products contract the left operand's last axis with the right operand's first. -/
theorem dot_plain : dot_S100000x128_S128x128_S100000x128_1_0_0_1_n_n = DotDims.plain 100000 128 128 := rfl

/-- The reference's last five operations, applied to any aggregated-features array `a`, give `wholeOf`. -/
theorem tail_whole (a x0 : FVec Ideal S100000x128 .f32) (x4 x6 : FVec Ideal S128x128 .f32) (x5 : FVec Ideal S128 .f32) :
    addf (addf (Host.dotGeneral dot_S100000x128_S128x128_S100000x128_1_0_0_1_n_n none a x4)
          (broadcastInDim S100000x128 ![0, 1] bcast_S1x128_S100000x128_0_1 (broadcastInDim S1x128 ![1] bcast_S128_S1x128_1 x5)))
        (Host.dotGeneral dot_S100000x128_S128x128_S100000x128_1_0_0_1_n_n none x0 x6 : FVec Ideal S100000x128 .f32)
      = wholeOf a x0 x4 x6 (vec x5) :=
  host_whole _ dot_plain none none a x4 x0 x6 x5 _ _

/-- The term the reference's run ends at is `wholeOf` over its own aggregated features. -/
theorem result_whole (x0 : FVec Ideal S100000x128 .f32) (x1 x2 : (⟨S1600000, .i32⟩ : BufTy).Contents (Elt Ideal))
    (x3 : FVec Ideal S1600000 .f32) (x4 x6 : FVec Ideal S128x128 .f32) (x5 : FVec Ideal S128 .f32) :
    Read.val_main_v18 (F := Ideal) x0 x1 x2 x3 x4 x5 x6
      = wholeOf (Read.val_main_v12 (F := Ideal) x0 x1 x2 x3) x0 x4 x6 (vec x5) :=
  tail_whole (Read.val_main_v12 (F := Ideal) x0 x1 x2 x3) x0 x4 x6 x5

end Cert.ReferenceIdeal.Rows

end
-- ==== Proof.lean ====
/-
  A graph-convolution layer with two weight matrices: for node features `x` (100000 nodes, 128 features), edges
  `(row, col)` with weights `val`, weight matrices `W_l`, `W_r` (128 × 128) and a bias `b_l`, both programs compute
      out = (agg · W_l + b_l) + x · W_r,      agg[i] = ∑ over edges e with row[e] = i of val[e] · x[col[e]].
  Both compute `agg` on the host by the same operations (a gather of the source rows, a multiplication by the edge
  weights, an accumulating scatter into zeros); that array is carried as one unopened term, equal on the two sides
  as it stands. The reference then applies two `dot_general`s over all 100000 rows; the kernel runs over 20 blocks
  of 5000 rows, in each block rounding its operands to a shorter float format (the identity on the extended reals),
  multiplying into zero accumulators and adding the bias, held as one row, in between. Row `r` of either result is
  the same function `layerSum` of row `r` of `agg` and row `r` of `x`:
      n ↦ ((∑ k, agg r k * W_l k n) + b_l n) + ∑ k, x r k * W_r k n,
  with the same grouping of the three summands on both sides, so no law of the extended reals beyond reading the
  sums is needed and finiteness of the inputs is not used. The twenty blocks cover the rows, so the kernel's result
  array is that function at every row (Proof/Whole.lean); the reference's is by Proof/RefRows.lean.
  The three frames are the generated ones (the reference's from its generated run); the idealization rewrote no
  operation, so there is nothing to preserve beyond `True`.
-/
import proofs.«115758_j88244398064425_1_alg».proof.Defs
import proofs.«115758_j88244398064425_1_alg».proof.Proof.Gen.Kernel
import proofs.«115758_j88244398064425_1_alg».proof.Proof.Gen.Kernel.Skeleton
import proofs.«115758_j88244398064425_1_alg».proof.Proof.Gen.Kernel.Launch
import proofs.«115758_j88244398064425_1_alg».proof.Proof.Gen.Kernel.Points
import proofs.«115758_j88244398064425_1_alg».proof.Proof.Gen.Kernel.Frame
import proofs.«115758_j88244398064425_1_alg».proof.Proof.Gen.KernelIdeal
import proofs.«115758_j88244398064425_1_alg».proof.Proof.Gen.KernelIdeal.Skeleton
import proofs.«115758_j88244398064425_1_alg».proof.Proof.Gen.KernelIdeal.Launch
import proofs.«115758_j88244398064425_1_alg».proof.Proof.Gen.KernelIdeal.Points
import proofs.«115758_j88244398064425_1_alg».proof.Proof.Gen.KernelIdeal.Frame
import proofs.«115758_j88244398064425_1_alg».proof.Proof.Gen.ReferenceIdeal
import proofs.«115758_j88244398064425_1_alg».proof.Proof.Gen.Pre_finite_inputs
import proofs.«115758_j88244398064425_1_alg».proof.Proof.Gen.KernelIdeal.Value
import proofs.«115758_j88244398064425_1_alg».proof.Proof.Gen.ReferenceIdeal.Run
import proofs.«115758_j88244398064425_1_alg».proof.Proof.Gen.ReferenceIdeal.Read
import proofs.«115758_j88244398064425_1_alg».proof.Proof.Whole
import proofs.«115758_j88244398064425_1_alg».proof.Proof.RefRows
import Idealize.ShloMosaic.Adequacy
import Idealize.ShloMosaic.Init

noncomputable section

namespace Cert.Proof

open Idealize.ShloMosaic Idealize.SL.Sem

/-- The aggregated features of the two programs are one function of the arguments: the same operations with the
    same constants, printed once in each program. -/
theorem aggregated_eq (x0 : FVec Ideal Cert.KernelIdeal.S100000x128 .f32)
    (x1 x2 : (⟨Cert.KernelIdeal.S1600000, .i32⟩ : BufTy).Contents (Elt Ideal)) (x3 : FVec Ideal Cert.KernelIdeal.S1600000 .f32) :
    Cert.KernelIdeal.Entry.aggregated (F := Ideal) x0 x1 x2 x3
      = Cert.ReferenceIdeal.Read.val_main_v12 (F := Ideal) x0 x1 x2 x3 := rfl

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at `wholeOf` of the aggregated features, the node features, the two weight
    matrices and the bias of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v18_eq, Cert.ReferenceIdeal.Rows.result_whole, a0, a1, a2, a3, a4, a5, a6]
  show _ = Cert.KernelIdeal.Whole.result m c
  unfold Cert.KernelIdeal.Whole.result
  rw [aggregated_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
